-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v21_0)) (v2 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v21_0) = v1 c
          ∧ r.2.mem ((c.tc : Thread Cert.KernelIdeal.nD Cert.KernelIdeal.τ).loc Cert.KernelIdeal.main_v36) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v109) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S2000x128 : Shape := ⟨2, ![2000, 128]⟩
abbrev S2000x1 : Shape := ⟨2, ![2000, 1]⟩

abbrev nBuf : Space → Nat
  | .hbm => 54
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000x1, .f32⟩
  | .hbm, ⟨14, _⟩ => ⟨S_, .f32⟩
  | .hbm, ⟨15, _⟩ => ⟨S50000x1, .f32⟩
  | .hbm, ⟨16, _⟩ => ⟨S600000x1, .i32⟩
  | .hbm, ⟨17, _⟩ => ⟨S50000x1, .f32⟩
  | .hbm, ⟨18, _⟩ => ⟨S_, .i32⟩
  | .hbm, ⟨19, _⟩ => ⟨S600000, .i32⟩
  | .hbm, ⟨20, _⟩ => ⟨S600000, .i1⟩
  | .hbm, ⟨21, _⟩ => ⟨S_, .i32⟩
  | .hbm, ⟨22, _⟩ => ⟨S600000, .i32⟩
  | .hbm, ⟨23, _⟩ => ⟨S600000, .i32⟩
  | .hbm, ⟨24, _⟩ => ⟨S600000, .i32⟩
  | .hbm, ⟨25, _⟩ => ⟨S600000x1, .i32⟩
  | .hbm, ⟨26, _⟩ => ⟨S600000x128, .f32⟩
  | .hbm, ⟨27, _⟩ => ⟨S_, .f32⟩
  | .hbm, ⟨28, _⟩ => ⟨S50000x128, .f32⟩
  | .hbm, ⟨29, _⟩ => ⟨S600000x1, .i32⟩
  | .hbm, ⟨30, _⟩ => ⟨S50000x128, .f32⟩
  | .hbm, ⟨31, _⟩ => ⟨S128x128, .f32⟩
  | .hbm, ⟨32, _⟩ => ⟨S128x128, .f32⟩
  | .hbm, ⟨33, _⟩ => ⟨S1x128, .f32⟩
  | .hbm, ⟨34, _⟩ => ⟨S50000x128, .f32⟩
  | .hbm, ⟨35, _⟩ => ⟨S50000x128, .bf16⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x128, .bf16⟩
  | .hbm, ⟨45, _⟩ => ⟨S600000x128, .f32⟩
  | .hbm, ⟨46, _⟩ => ⟨S_, .f32⟩
  | .hbm, ⟨47, _⟩ => ⟨S50000x128, .f32⟩
  | .hbm, ⟨48, _⟩ => ⟨S600000x1, .i32⟩
  | .hbm, ⟨49, _⟩ => ⟨S50000x128, .f32⟩
  | .hbm, ⟨50, _⟩ => ⟨S128x128, .f32⟩
  | .hbm, ⟨51, _⟩ => ⟨S128x128, .f32⟩
  | .hbm, ⟨52, _⟩ => ⟨S1x128, .f32⟩
  | .hbm, ⟨53, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .bf16⟩
  | .local _ .vmem, ⟨12, _⟩ => ⟨S2000x128, .bf16⟩
  | .local _ .vmem, ⟨13, _⟩ => ⟨S2000x128, .f32⟩
  | .local _ .vmem, ⟨14, _⟩ => ⟨S2000x128, .f32⟩
  | .local _ .vmem, ⟨15, _⟩ => ⟨S2000x128, .bf16⟩
  | .local _ .vmem, ⟨16, _⟩ => ⟨S2000x128, .bf16⟩
  | .local _ .vmem, ⟨17, _⟩ => ⟨S2000x1, .f32⟩
  | .local _ .vmem, ⟨18, _⟩ => ⟨S2000x1, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000x1 : S_.BroadcastsInDim S600000x1 (![] : Fin 0 → Fin S600000x1.rank)
  bcast_S_S50000x1 : S_.BroadcastsInDim S50000x1 (![] : Fin 0 → Fin S50000x1.rank)
  bcast_S600000_S600000x1_0 : S600000.BroadcastsInDim S600000x1 (![0] : Fin 1 → Fin S600000x1.rank)
  bcast_S_S600000 : S_.BroadcastsInDim S600000 (![] : Fin 0 → Fin S600000.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  scatter_S50000x1_S600000x1_S600000x1_1_0_0_1_wf : ScatterDims.WF S50000x1 S600000x1 S600000x1 [1] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .bf16 = 32 ∨ (Rect.block (s := S50000x128) S2000x128.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v17) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v21_1) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v32) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21_1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩

abbrev nBuf : Space → Nat
  | .hbm => 146
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S1x600000, .i32⟩
  | 9 => ⟨S600000, .i32⟩
  | 10 => ⟨S1x600000, .i32⟩
  | 11 => ⟨S600000, .i32⟩
  | 12 => ⟨S_, .i32⟩
  | 13 => ⟨S600000, .i32⟩
  | 14 => ⟨S600000, .i1⟩
  | 15 => ⟨S_, .i32⟩
  | 16 => ⟨S600000, .i32⟩
  | 17 => ⟨S600000, .i32⟩
  | 18 => ⟨S600000, .i32⟩
  | 19 => ⟨S600000x1, .i32⟩
  | 20 => ⟨S600000x128, .f32⟩
  | 21 => ⟨S_, .f32⟩
  | 22 => ⟨S50000x128, .f32⟩
  | 23 => ⟨S600000x1, .i32⟩
  | 24 => ⟨S50000x128, .f32⟩
  | 25 => ⟨S_, .f32⟩
  | 26 => ⟨S600000x1, .f32⟩
  | 27 => ⟨S_, .f32⟩
  | 28 => ⟨S50000x1, .f32⟩
  | 29 => ⟨S600000x1, .i32⟩
  | 30 => ⟨S50000x1, .f32⟩
  | 31 => ⟨S_, .f32⟩
  | 32 => ⟨S50000x1, .f32⟩
  | 33 => ⟨S50000x1, .f32⟩
  | 34 => ⟨S50000x128, .f32⟩
  | 35 => ⟨S50000x128, .f32⟩
  | 36 => ⟨S128x128, .f32⟩
  | 37 => ⟨S50000x128, .f32⟩
  | 38 => ⟨S1x128, .f32⟩
  | 39 => ⟨S50000x128, .f32⟩
  | 40 => ⟨S50000x128, .f32⟩
  | 41 => ⟨S128x128, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000x128, .f32⟩
  | 56 => ⟨S_, .f32⟩
  | 57 => ⟨S50000x128, .f32⟩
  | 58 => ⟨S600000x1, .i32⟩
  | 59 => ⟨S50000x128, .f32⟩
  | 60 => ⟨S_, .f32⟩
  | 61 => ⟨S600000x1, .f32⟩
  | 62 => ⟨S_, .f32⟩
  | 63 => ⟨S50000x1, .f32⟩
  | 64 => ⟨S600000x1, .i32⟩
  | 65 => ⟨S50000x1, .f32⟩
  | 66 => ⟨S_, .f32⟩
  | 67 => ⟨S50000x1, .f32⟩
  | 68 => ⟨S50000x1, .f32⟩
  | 69 => ⟨S50000x128, .f32⟩
  | 70 => ⟨S50000x128, .f32⟩
  | 71 => ⟨S128x128, .f32⟩
  | 72 => ⟨S50000x128, .f32⟩
  | 73 => ⟨S1x128, .f32⟩
  | 74 => ⟨S50000x128, .f32⟩
  | 75 => ⟨S50000x128, .f32⟩
  | 76 => ⟨S128x128, .f32⟩
  | 77 => ⟨S50000x128, .f32⟩
  | 78 => ⟨S50000x128, .f32⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S600000x128, .f32⟩
  | 88 => ⟨S_, .f32⟩
  | 89 => ⟨S50000x128, .f32⟩
  | 90 => ⟨S600000x1, .i32⟩
  | 91 => ⟨S50000x128, .f32⟩
  | 92 => ⟨S_, .f32⟩
  | 93 => ⟨S600000x1, .f32⟩
  | 94 => ⟨S_, .f32⟩
  | 95 => ⟨S50000x1, .f32⟩
  | 96 => ⟨S600000x1, .i32⟩
  | 97 => ⟨S50000x1, .f32⟩
  | 98 => ⟨S_, .f32⟩
  | 99 => ⟨S50000x1, .f32⟩
  | 100 => ⟨S50000x1, .f32⟩
  | 101 => ⟨S50000x128, .f32⟩
  | 102 => ⟨S50000x128, .f32⟩
  | 103 => ⟨S128x128, .f32⟩
  | 104 => ⟨S50000x128, .f32⟩
  | 105 => ⟨S1x128, .f32⟩
  | 106 => ⟨S50000x128, .f32⟩
  | 107 => ⟨S50000x128, .f32⟩
  | 108 => ⟨S128x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S600000x128, .f32⟩
  | 123 => ⟨S_, .f32⟩
  | 124 => ⟨S50000x128, .f32⟩
  | 125 => ⟨S600000x1, .i32⟩
  | 126 => ⟨S50000x128, .f32⟩
  | 127 => ⟨S_, .f32⟩
  | _ => ⟨S50000x128, .f32⟩

abbrev hbmTy0_1 (i : Nat) : BufTy := match i % 128 with
  | 0 => ⟨S600000x1, .f32⟩
  | 1 => ⟨S_, .f32⟩
  | 2 => ⟨S50000x1, .f32⟩
  | 3 => ⟨S600000x1, .i32⟩
  | 4 => ⟨S50000x1, .f32⟩
  | 5 => ⟨S_, .f32⟩
  | 6 => ⟨S50000x1, .f32⟩
  | 7 => ⟨S50000x1, .f32⟩
  | 8 => ⟨S50000x128, .f32⟩
  | 9 => ⟨S50000x128, .f32⟩
  | 10 => ⟨S128x128, .f32⟩
  | 11 => ⟨S50000x128, .f32⟩
  | 12 => ⟨S1x128, .f32⟩
  | 13 => ⟨S50000x128, .f32⟩
  | 14 => ⟨S50000x128, .f32⟩
  | 15 => ⟨S128x128, .f32⟩
  | 16 => ⟨S50000x128, .f32⟩
  | 17 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_cst_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_15 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_call1_cst : Ref sig .tc := ⟨.hbm, 111, rfl⟩
abbrev main_call1_v0 : Ref sig .tc := ⟨.hbm, 112, rfl⟩
abbrev main_v83 : Ref sig .tc := ⟨.hbm, 113, rfl⟩
abbrev main_c_16 : Ref sig .tc := ⟨.hbm, 114, rfl⟩
abbrev main_v84 : Ref sig .tc := ⟨.hbm, 115, rfl⟩
abbrev main_v85 : Ref sig .tc := ⟨.hbm, 116, rfl⟩
abbrev main_c_17 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_18 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_19 : Ref sig .tc := ⟨.hbm, 127, rfl⟩
abbrev main_v94 : Ref sig .tc := ⟨.hbm, 128, rfl⟩
abbrev main_cst_20 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_21 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its two results NAMED. The program is four stretches: host operations, the first
  tile pipeline, host operations, the second tile pipeline. The generated frame certificate folds the buffer contents
  through those stretches (`Gen.W0` … `Gen.W4`) and ends with every unscoped buffer at the last boundary's contents
  `Gen.W4`; it then keeps only what it says about the arguments. Here the same launch theorem over the same generated
  segments is read at the result buffers as well: every weakly fair execution terminates with the first layer's
  output and the second layer's output at `Gen.W4`'s contents of their buffers, and the arguments as launched.
-/
import proofs.«129506_j59133109731936_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffers read against the last boundary's contents. -/
theorem run_named : θ_run defs (onTc (τ := τ) (main (F := F))) ⟨m, fun _ => 0, ρ⟩ (fun r => ∀ c : Dev nD,
      r.2.mem ((c.tc : Thread nD τ).loc main_v21_0) = W4 m ρ c (Proc.devRef .tc main_v21_0)
      ∧ r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v21_0 (by decide)),
       h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Named

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.LibMeanLayer.lean ====
/-
  A graph-convolution layer that AVERAGES the summed neighbour rows first and multiplies afterwards, as one
  whole-array function over the extended reals:

    layer s x c wl wr b (r, j) = (∑ k, (s (r, k) / max (c (r, 0)) 1) · wl (k, j)  +  ∑ k, x (r, k) · wr (k, j)) + b (0, j)

  where s holds the summed neighbour rows, x the node's own rows, c the in-degree as an [M, 1] column (clamped below
  by one), wl and wr the two weight matrices (already transposed to [K, N]) and b the bias as a [1, N] row.

  * `layer_tile`: what a tile of rows computes on the vector unit (the roundings to bf16 are the identity on extended
    reals; both products go into zero accumulators) is `layer` of the tile's rows.
  * `layer_host`: the host's spelling — a quotient by the clamped degree spread over the columns, two `dot_general`s,
    the bias broadcast twice, summed as (A + b) + B — is `layer` of the whole arrays; the only algebra is that
    addition of extended reals is commutative and associative.
  * `layer_congr_rows`: row r of `layer` depends on row r of s, x and c only — so a tile of `layer` of the whole arrays
    is `layer` of the tiles.
  * `relu`: the positive part, in the vector unit's and the host's spelling.
-/
import Idealize.ShloMosaic.Lib.ValueIdx
import Idealize.ShloMosaic.Lib.Pipeline.Value
import Idealize.ShloMosaic.Lib.ValueLayout
import Idealize.ShloMosaic.PureOps.Ideal.Laws
import proofs.«129506_j59133109731936_2_alg».proof.Proof.LibDense

noncomputable section

namespace Cert.MeanLayer

open Idealize.ShloMosaic Idealize.ShloMosaic.ValueIdx

/-- The f32 words of one and of zero, as extended reals. -/
abbrev one : EReal := Ideal.ofBits .f32 0x3F800000#32
abbrev zero : EReal := Ideal.ofBits .f32 0x00000000#32

/-- Mean of the neighbours times one weight matrix, plus the node's own row times the other, plus the bias. -/
def layer {M K N : Nat} (s x : (⟨2, ![M, K]⟩ : Shape).Idx → EReal) (c : (⟨2, ![M, 1]⟩ : Shape).Idx → EReal)
    (wl wr : (⟨2, ![K, N]⟩ : Shape).Idx → EReal) (b : (⟨2, ![1, N]⟩ : Shape).Idx → EReal) :
    (⟨2, ![M, N]⟩ : Shape).Idx → EReal :=
  fun i => ((∑ k : Fin K, Ideal.div (s (ix2 (n0 := M) (i 0) k)) (max (c (ix2 (n0 := M) (i 0) (0 : Fin 1))) one)
                * wl (ix2 (n1 := N) k (i 1)))
      + (∑ k : Fin K, x (ix2 (n0 := M) (i 0) k) * wr (ix2 (n1 := N) k (i 1))))
    + b (ix2 (0 : Fin 1) (n1 := N) (i 1))

/-- The positive part, entry by entry. -/
def relu {M N : Nat} (v : (⟨2, ![M, N]⟩ : Shape).Idx → EReal) : (⟨2, ![M, N]⟩ : Shape).Idx → EReal :=
  fun i => max (v i) zero

theorem layer_ix2 {M K N : Nat} (s x : (⟨2, ![M, K]⟩ : Shape).Idx → EReal) (c : (⟨2, ![M, 1]⟩ : Shape).Idx → EReal)
    (wl wr : (⟨2, ![K, N]⟩ : Shape).Idx → EReal) (b : (⟨2, ![1, N]⟩ : Shape).Idx → EReal) (r : Fin M) (j : Fin N) :
    layer s x c wl wr b (ix2 r j)
      = ((∑ k : Fin K, Ideal.div (s (ix2 r k)) (max (c (ix2 r (0 : Fin 1))) one) * wl (ix2 k j))
          + (∑ k : Fin K, x (ix2 r k) * wr (ix2 k j))) + b (ix2 (0 : Fin 1) j) := rfl

/-- Row r of the layer reads row r of the summed rows, of the own rows and of the degree column, and nothing else of them. -/
theorem layer_congr_rows {M n K N : Nat} (s x : (⟨2, ![M, K]⟩ : Shape).Idx → EReal) (c : (⟨2, ![M, 1]⟩ : Shape).Idx → EReal)
    (s' x' : (⟨2, ![n, K]⟩ : Shape).Idx → EReal) (c' : (⟨2, ![n, 1]⟩ : Shape).Idx → EReal)
    (wl wr : (⟨2, ![K, N]⟩ : Shape).Idx → EReal) (b : (⟨2, ![1, N]⟩ : Shape).Idx → EReal)
    (p : Fin n) (r : Fin M) (j : Fin N)
    (hs : ∀ k : Fin K, s' (ix2 p k) = s (ix2 r k)) (hx : ∀ k : Fin K, x' (ix2 p k) = x (ix2 r k))
    (hc : c' (ix2 p (0 : Fin 1)) = c (ix2 r (0 : Fin 1))) :
    layer s' x' c' wl wr b (ix2 p j) = layer s x c wl wr b (ix2 r j) := by
  rw [layer_ix2, layer_ix2, hc]
  refine congrArg₂ (· + ·) (congrArg₂ (· + ·) (Finset.sum_congr rfl fun k _ => ?_) (Finset.sum_congr rfl fun k _ => ?_)) rfl
  · rw [hs k]
  · rw [hx k]

/-- The same with the weights and the bias replaced by equal ones. -/
theorem layer_congr {M n K N : Nat} (s x : (⟨2, ![M, K]⟩ : Shape).Idx → EReal) (c : (⟨2, ![M, 1]⟩ : Shape).Idx → EReal)
    (s' x' : (⟨2, ![n, K]⟩ : Shape).Idx → EReal) (c' : (⟨2, ![n, 1]⟩ : Shape).Idx → EReal)
    (wl wr wl' wr' : (⟨2, ![K, N]⟩ : Shape).Idx → EReal) (b b' : (⟨2, ![1, N]⟩ : Shape).Idx → EReal)
    (p : Fin n) (r : Fin M) (j : Fin N)
    (hs : ∀ k : Fin K, s' (ix2 p k) = s (ix2 r k)) (hx : ∀ k : Fin K, x' (ix2 p k) = x (ix2 r k))
    (hc : c' (ix2 p (0 : Fin 1)) = c (ix2 r (0 : Fin 1))) (hwl : wl' = wl) (hwr : wr' = wr) (hb : b' = b) :
    layer s' x' c' wl' wr' b' (ix2 p j) = layer s x c wl wr b (ix2 r j) := by
  subst hwl hwr hb
  exact layer_congr_rows s x c s' x' c' _ _ _ p r j hs hx hc

/-! ## A tile of rows on the vector unit -/

/-- The tile body: the summed rows over the clamped degree column spread across the columns, rounded to bf16 (the
    identity here) and multiplied with the first weights into a zero accumulator; the own rows (already bf16) with the
    second weights likewise; the two products summed and the bias row spread down the tile added. -/
theorem layer_tile {n K N : Nat}
    (wf : DotDims.WF (⟨2, ![n, K]⟩ : Shape) ⟨2, ![K, N]⟩ ⟨2, ![n, N]⟩ [1] [0] [0] [1] [] [])
    (s : FVec Ideal (⟨2, ![n, K]⟩ : Shape) .f32) (xb : FVec Ideal (⟨2, ![n, K]⟩ : Shape) .bf16)
    (c : FVec Ideal (⟨2, ![n, 1]⟩ : Shape) .f32)
    (wl wr : FVec Ideal (⟨2, ![K, N]⟩ : Shape) .f32) (b : FVec Ideal (⟨2, ![1, N]⟩ : Shape) .f32)
    (hlt : FTy.bits .bf16 < FTy.bits .f32)
    (hcs : (⟨2, ![n, K]⟩ : Shape).ShapeCasts ⟨2, ![n, K]⟩) (hcc : (⟨2, ![n, 1]⟩ : Shape).ShapeCasts ⟨2, ![n, 1]⟩)
    (hcw : (⟨2, ![K, N]⟩ : Shape).ShapeCasts ⟨2, ![K, N]⟩) (hcb : (⟨2, ![1, N]⟩ : Shape).ShapeCasts ⟨2, ![1, N]⟩)
    (hbc : (⟨2, ![n, 1]⟩ : Shape).Broadcasts ⟨2, ![n, K]⟩) (hbr : (⟨2, ![1, N]⟩ : Shape).Broadcasts ⟨2, ![n, N]⟩) :
    addf (addf
        (matmul (LibDense.plainOf wf) none
          (truncf .bf16 (divf (shapeCast (⟨2, ![n, K]⟩ : Shape) s hcs)
            (broadcastTo (⟨2, ![n, K]⟩ : Shape) (maximumf (shapeCast (⟨2, ![n, 1]⟩ : Shape) c hcc)
              (broadcast (⟨2, ![n, 1]⟩ : Shape) (Scalar.ofBits (F := Ideal) .f32 0x3F800000#32))) hbc)) hlt)
          (truncf .bf16 (shapeCast (⟨2, ![K, N]⟩ : Shape) wl hcw) hlt)
          (constant (⟨2, ![n, N]⟩ : Shape) .f32 0x00000000#32))
        (matmul (LibDense.plainOf wf) none xb (truncf .bf16 (shapeCast (⟨2, ![K, N]⟩ : Shape) wr hcw) hlt)
          (constant (⟨2, ![n, N]⟩ : Shape) .f32 0x00000000#32)))
      (broadcastTo (⟨2, ![n, N]⟩ : Shape) (shapeCast (⟨2, ![1, N]⟩ : Shape) b hcb) hbr)
      = layer s xb c wl wr b := by
  rw [shapeCast_self s, shapeCast_self c, shapeCast_self wl, shapeCast_self wr, shapeCast_self b]
  funext i
  obtain ⟨r, j, rfl⟩ : ∃ (r : Fin n) (j : Fin N), i = ix2 r j := ⟨i 0, i 1, eq_ix2 i⟩
  rw [layer_ix2]
  refine congrArg₂ (· + ·) (congrArg₂ (· + ·) ?_ ?_) (broadcastTo_1b_ab_apply b hbr r j)
  · refine (LibDense.matmul_zero_plain wf none _ _ r j).trans (Finset.sum_congr rfl fun k _ => ?_)
    show Ideal.div (s (ix2 r k)) (broadcastTo (⟨2, ![n, K]⟩ : Shape) (maximumf c
        (broadcast (⟨2, ![n, 1]⟩ : Shape) (Scalar.ofBits (F := Ideal) .f32 0x3F800000#32))) hbc (ix2 r k)) * wl (ix2 k j) = _
    rw [LibDense.spread_col_apply]
    rfl
  · exact (LibDense.matmul_zero_plain wf none _ _ r j).trans (Finset.sum_congr rfl fun k _ => rfl)

/-- The positive part on the vector unit: the maximum with a zero vector (then rounded to bf16: the identity). -/
theorem relu_tile {n N : Nat} (v : FVec Ideal (⟨2, ![n, N]⟩ : Shape) .f32) (hlt : FTy.bits .bf16 < FTy.bits .f32) :
    truncf .bf16 (maximumf v (broadcast (⟨2, ![n, N]⟩ : Shape) (Scalar.ofBits (F := Ideal) .f32 0x00000000#32))) hlt
      = relu v := rfl

/-! ## The host's spelling -/

/-- The clamped degree column spread across the columns, read at (r, k). -/
theorem clamp_col_host {M K : Nat} (c : FVec Ideal (⟨2, ![M, 1]⟩ : Shape) .f32)
    (h0 : (⟨0, ![]⟩ : Shape).BroadcastsInDim ⟨2, ![M, 1]⟩ ![])
    (hc : (⟨2, ![M, 1]⟩ : Shape).BroadcastsInDim ⟨2, ![M, K]⟩ ![0, 1]) (r : Fin M) (k : Fin K) :
    broadcastInDim (⟨2, ![M, K]⟩ : Shape) ![0, 1] hc
        (maximumf c (broadcastInDim (⟨2, ![M, 1]⟩ : Shape) ![] h0 (constant (F := Ideal) (⟨0, ![]⟩ : Shape) .f32 0x3F800000#32)))
      (ix2 r k) = max (c (ix2 r (0 : Fin 1))) one := by
  refine (broadcastInDim_apply ![0, 1] hc _ (ix2 r k) (ix2 r (0 : Fin 1)) fun a => ?_).trans rfl
  match a with
  | ⟨0, _⟩ =>
    show r.val = if M = 1 then 0 else r.val
    split
    · have := r.isLt; omega
    · rfl
  | ⟨1, _⟩ => rfl

/-- The bias laid out as a row and spread down the rows, read at (r, j). -/
theorem bias_host {M N : Nat} (b : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (j : Fin N) :
    broadcastInDim (⟨2, ![M, N]⟩ : Shape) ![0, 1] h2 (broadcastInDim (⟨2, ![1, N]⟩ : Shape) ![1] h1 b) (ix2 r j) = b (ix1 j) := by
  refine (broadcastInDim_apply ![0, 1] h2 _ (ix2 r j) (ix2 (0 : Fin 1) j) fun a => ?_).trans
    (broadcastInDim_apply ![1] h1 b (ix2 (0 : Fin 1) j) (ix1 j) fun a => ?_)
  · match a with
    | ⟨0, _⟩ => rfl
    | ⟨1, _⟩ =>
      show j.val = if N = 1 then 0 else j.val
      split
      · have := j.isLt; omega
      · rfl
  · match a with
    | ⟨0, _⟩ =>
      show j.val = if N = 1 then 0 else j.val
      split
      · have := j.isLt; omega
      · rfl

/-- The host's layer, summed as (A + bias) + B, is the layer summed as (A + B) + bias. -/
theorem layer_host {M K N : Nat}
    (wf : DotDims.WF (⟨2, ![M, K]⟩ : Shape) ⟨2, ![K, N]⟩ ⟨2, ![M, N]⟩ [1] [0] [0] [1] [] [])
    (s x : FVec Ideal (⟨2, ![M, K]⟩ : Shape) .f32) (c : FVec Ideal (⟨2, ![M, 1]⟩ : Shape) .f32)
    (wl wr : FVec Ideal (⟨2, ![K, N]⟩ : Shape) .f32) (b : FVec Ideal (⟨1, ![N]⟩ : Shape) .f32)
    (h0 : (⟨0, ![]⟩ : Shape).BroadcastsInDim ⟨2, ![M, 1]⟩ ![])
    (hc : (⟨2, ![M, 1]⟩ : Shape).BroadcastsInDim ⟨2, ![M, K]⟩ ![0, 1])
    (h1 : (⟨1, ![N]⟩ : Shape).BroadcastsInDim ⟨2, ![1, N]⟩ ![1])
    (h2 : (⟨2, ![1, N]⟩ : Shape).BroadcastsInDim ⟨2, ![M, N]⟩ ![0, 1])
    (hsc : (⟨1, ![N]⟩ : Shape).ShapeCasts ⟨2, ![1, N]⟩) :
    addf (addf
        (Host.dotGeneral (LibDense.plainOf wf) none
          (Host.divf s (broadcastInDim (⟨2, ![M, K]⟩ : Shape) ![0, 1] hc
            (maximumf c (broadcastInDim (⟨2, ![M, 1]⟩ : Shape) ![] h0 (constant (F := Ideal) (⟨0, ![]⟩ : Shape) .f32 0x3F800000#32))))) wl)
        (broadcastInDim (⟨2, ![M, N]⟩ : Shape) ![0, 1] h2 (broadcastInDim (⟨2, ![1, N]⟩ : Shape) ![1] h1 b)))
      (Host.dotGeneral (LibDense.plainOf wf) none x wr)
      = layer s x c wl wr (shapeCast (⟨2, ![1, N]⟩ : Shape) b hsc) := by
  funext i
  obtain ⟨r, j, rfl⟩ : ∃ (r : Fin M) (j : Fin N), i = ix2 r j := ⟨i 0, i 1, eq_ix2 i⟩
  rw [layer_ix2, shapeCast_a_1a_apply, add_right_comm]
  refine congrArg₂ (· + ·) (congrArg₂ (· + ·) ?_ (bias_host b h1 h2 r j)) (LibDense.dotGeneral_plain wf none .single x wr r j)
  refine (LibDense.dotGeneral_plain wf none .single _ wl r j).trans (Finset.sum_congr rfl fun k _ => ?_)
  exact congrArg (fun z => Ideal.div (s (ix2 r k)) z * wl (ix2 k j)) (clamp_col_host c h0 hc r k)

/-- The host's positive part: the maximum with a zero array. -/
theorem relu_host {M N : Nat} (v : FVec Ideal (⟨2, ![M, N]⟩ : Shape) .f32)
    (hz : (⟨0, ![]⟩ : Shape).BroadcastsInDim ⟨2, ![M, N]⟩ ![]) :
    maximumf v (broadcastInDim (⟨2, ![M, N]⟩ : Shape) ![] hz (constant (F := Ideal) (⟨0, ![]⟩ : Shape) .f32 0x00000000#32))
      = relu v := rfl

end Cert.MeanLayer

end
-- ==== Proof.KernelTiles.lean ====
/-
  From tiles to whole arrays. Each of the two tile pipelines walks 25 grid points; at point t it stages rows
  2000·t … 2000·t + 1999 of the summed-neighbour array, of the own-feature array and of the degree column, the two
  weight matrices and the bias row whole, runs the tile body, and writes the body's tile back to the same rows of
  its output array(s). The body's tile is `MeanLayer.layer` of the staged tiles (`MeanLayer.layer_tile`), and row r of
  `layer` reads row r of its row-indexed operands only (`MeanLayer.layer_congr_rows`), so what point t writes back is
  tile t of `layer` of the WHOLE arrays as the pipeline found them; the 25 tiles cover the 50000 rows, so the output
  array ends as that whole-array function. Stated at any entry contents `V` of the buffers.
-/
import proofs.«129506_j59133109731936_2_alg».proof.Proof.Gen.KernelIdeal.Frame
import proofs.«129506_j59133109731936_2_alg».proof.Proof.LibMeanLayer

set_option maxRecDepth 16384

noncomputable section

namespace Cert.KernelIdeal.Tiles

open Cert.KernelIdeal Cert.KernelIdeal.Gen Cert.MeanLayer
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The tile bodies -/

/-- The first pipeline's f32 output tile: the layer of the staged tiles. -/
theorem pay0_1 (v0 : Vec Ideal S2000x1 .f32) (v4 v9 : Vec Ideal S2000x128 .f32) (v11 v14 : Vec Ideal S128x128 .f32)
    (v17 : Vec Ideal S1x128 .f32) : k0_pay1 v0 v4 v9 v11 v14 v17 = layer v4 v9 v0 v11 v14 v17 :=
  layer_tile dot_S2000x128_S128x128_S2000x128_1_0_0_1_n_n.wf v4 (truncf .bf16 v9 bitsLt_bf16_f32) v0 v11 v14 v17
    bitsLt_bf16_f32 shapeCasts_S2000x128_S2000x128 shapeCasts_S2000x1_S2000x1 shapeCasts_S128x128_S128x128
    shapeCasts_S1x128_S1x128 broadcasts_S2000x1_S2000x128 broadcasts_S1x128_S2000x128

/-- The first pipeline's bf16 output tile: its positive part. -/
theorem pay0_2 (v0 : Vec Ideal S2000x1 .f32) (v4 v9 : Vec Ideal S2000x128 .f32) (v11 v14 : Vec Ideal S128x128 .f32)
    (v17 : Vec Ideal S1x128 .f32) : k0_pay2 v0 v4 v9 v11 v14 v17 = relu (layer v4 v9 v0 v11 v14 v17) := by
  rw [← pay0_1]; rfl

/-- The second pipeline's output tile: the layer again, its own rows arriving in bf16. -/
theorem pay1_1 (v0 : Vec Ideal S2000x1 .f32) (v4 : Vec Ideal S2000x128 .f32) (v9 : Vec Ideal S2000x128 .bf16)
    (v11 v14 : Vec Ideal S128x128 .f32) (v17 : Vec Ideal S1x128 .f32) :
    k1_pay1 v0 v4 v9 v11 v14 v17 = layer v4 v9 v0 v11 v14 v17 :=
  layer_tile dot_S2000x128_S128x128_S2000x128_1_0_0_1_n_n.wf v4 (shapeCast S2000x128 v9 shapeCasts_S2000x128_S2000x128) v0 v11 v14 v17
    bitsLt_bf16_f32 shapeCasts_S2000x128_S2000x128 shapeCasts_S2000x1_S2000x1 shapeCasts_S128x128_S128x128
    shapeCasts_S1x128_S1x128 broadcasts_S2000x1_S2000x128 broadcasts_S1x128_S2000x128 |>.trans
    (by rw [shapeCast_self])

/-! ## The windows' index maps, decided once over the 25 grid points -/

/-- Region 0: the three row-indexed inputs and the two outputs sit at block row t, column block 0; the weights and
    the bias at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Every block row below 25 is some point's. -/
theorem onto0 : ∀ q : Fin 25, ∃ t : Fin cfg0.N, t.val = q.val :=
  (by decide +kernel : ∀ q : Fin 25, ∃ t : Fin grid0.N, t.val = q.val)

/-! ## Region 0: the staged tiles read off the arrays -/

section Region0
variable (c : Dev nD) (t : Fin cfg0.N)

/-- A [2000, 128] input tile at point t, entry (p, k): the array's entry (2000·t + p, k). -/
theorem tile0_0 (x : S2000x128.Idx) (k : S50000x128.Idx) (h0 : (k 0).val = t.val * 2000 + (x 0).val) (h1 : (k 1).val = (x 1).val) :
    (iblk0 V c 0 t : Vec Ideal S2000x128 .f32) x = (V c main_v17 : S50000x128.Idx → Elt Ideal .f32) k := by
  obtain ⟨e00, e01, -⟩ := idx0 t
  show V c main_v17 (((cfg0.win 0).blk t).view.emb x) = V c main_v17 k
  refine congrArg _ (funext fun a => Fin.ext ?_)
  match a with
  | ⟨0, _⟩ => show win0_0.index t (0 : Fin 2) * 2000 + 1 * (x 0).val = (k 0).val; omega
  | ⟨1, _⟩ => show win0_0.index t (1 : Fin 2) * 128 + 1 * (x 1).val = (k 1).val; omega

theorem tile0_1 (x : S2000x128.Idx) (k : S50000x128.Idx) (h0 : (k 0).val = t.val * 2000 + (x 0).val) (h1 : (k 1).val = (x 1).val) :
    (iblk0 V c 1 t : Vec Ideal S2000x128 .f32) x = (V c main_arg0 : S50000x128.Idx → Elt Ideal .f32) k := by
  obtain ⟨-, -, e10, e11, -⟩ := idx0 t
  show V c main_arg0 (((cfg0.win 1).blk t).view.emb x) = V c main_arg0 k
  refine congrArg _ (funext fun a => Fin.ext ?_)
  match a with
  | ⟨0, _⟩ => show win0_1.index t (0 : Fin 2) * 2000 + 1 * (x 0).val = (k 0).val; omega
  | ⟨1, _⟩ => show win0_1.index t (1 : Fin 2) * 128 + 1 * (x 1).val = (k 1).val; omega

/-- The degree column's tile at point t, entry (p, 0): the column's entry (2000·t + p, 0). -/
theorem tile0_2 (x : S2000x1.Idx) (k : S50000x1.Idx) (h0 : (k 0).val = t.val * 2000 + (x 0).val) (h1 : (k 1).val = (x 1).val) :
    (iblk0 V c 2 t : Vec Ideal S2000x1 .f32) x = (V c main_v7 : S50000x1.Idx → Elt Ideal .f32) k := by
  obtain ⟨-, -, -, -, e20, e21, -⟩ := idx0 t
  show V c main_v7 (((cfg0.win 2).blk t).view.emb x) = V c main_v7 k
  refine congrArg _ (funext fun a => Fin.ext ?_)
  match a with
  | ⟨0, _⟩ => show win0_2.index t (0 : Fin 2) * 2000 + 1 * (x 0).val = (k 0).val; omega
  | ⟨1, _⟩ => show win0_2.index t (1 : Fin 2) * 1 + 1 * (x 1).val = (k 1).val; omega

/-- The weights and the bias are staged whole. -/
theorem tile0_3 : (iblk0 V c 3 t : Vec Ideal S128x128 .f32) = (V c main_v18 : S128x128.Idx → Elt Ideal .f32) := by
  obtain ⟨-, -, -, -, -, -, e30, e31, -⟩ := idx0 t
  funext x
  show V c main_v18 (((cfg0.win 3).blk t).view.emb x) = V c main_v18 x
  refine congrArg _ (funext fun a => Fin.ext ?_)
  match a with
  | ⟨0, _⟩ => show win0_3.index t (0 : Fin 2) * 128 + 1 * (x 0).val = (x 0).val; omega
  | ⟨1, _⟩ => show win0_3.index t (1 : Fin 2) * 128 + 1 * (x 1).val = (x 1).val; omega

theorem tile0_4 : (iblk0 V c 4 t : Vec Ideal S128x128 .f32) = (V c main_v19 : S128x128.Idx → Elt Ideal .f32) := by
  obtain ⟨-, -, -, -, -, -, -, -, e40, e41, -⟩ := idx0 t
  funext x
  show V c main_v19 (((cfg0.win 4).blk t).view.emb x) = V c main_v19 x
  refine congrArg _ (funext fun a => Fin.ext ?_)
  match a with
  | ⟨0, _⟩ => show win0_4.index t (0 : Fin 2) * 128 + 1 * (x 0).val = (x 0).val; omega
  | ⟨1, _⟩ => show win0_4.index t (1 : Fin 2) * 128 + 1 * (x 1).val = (x 1).val; omega

theorem tile0_5 : (iblk0 V c 5 t : Vec Ideal S1x128 .f32) = (V c main_v20 : S1x128.Idx → Elt Ideal .f32) := by
  obtain ⟨-, -, -, -, -, -, -, -, -, -, e50, e51, -⟩ := idx0 t
  funext x
  show V c main_v20 (((cfg0.win 5).blk t).view.emb x) = V c main_v20 x
  refine congrArg _ (funext fun a => Fin.ext ?_)
  match a with
  | ⟨0, _⟩ => show win0_5.index t (0 : Fin 2) * 1 + 1 * (x 0).val = (x 0).val; omega
  | ⟨1, _⟩ => show win0_5.index t (1 : Fin 2) * 128 + 1 * (x 1).val = (x 1).val; omega

/-- The layer of the staged tiles, at (p, j), is the layer of the whole arrays at (2000·t + p, j). -/
theorem layer_tile0 (x : S2000x128.Idx) (k : S50000x128.Idx) (h0 : (k 0).val = t.val * 2000 + (x 0).val) (h1 : (k 1).val = (x 1).val) :
    layer (iblk0 V c 0 t : Vec Ideal S2000x128 .f32) (iblk0 V c 1 t : Vec Ideal S2000x128 .f32) (iblk0 V c 2 t : Vec Ideal S2000x1 .f32)
        (iblk0 V c 3 t : Vec Ideal S128x128 .f32) (iblk0 V c 4 t : Vec Ideal S128x128 .f32) (iblk0 V c 5 t : Vec Ideal S1x128 .f32) x
      = layer (V c main_v17 : S50000x128.Idx → Elt Ideal .f32) (V c main_arg0 : S50000x128.Idx → Elt Ideal .f32)
          (V c main_v7 : S50000x1.Idx → Elt Ideal .f32) (V c main_v18 : S128x128.Idx → Elt Ideal .f32)
          (V c main_v19 : S128x128.Idx → Elt Ideal .f32) (V c main_v20 : S1x128.Idx → Elt Ideal .f32) k := by
  obtain ⟨p, j, rfl⟩ : ∃ (p : Fin 2000) (j : Fin 128), x = ix2 p j := ⟨x 0, x 1, eq_ix2 x⟩
  obtain ⟨r, j', rfl⟩ : ∃ (r : Fin 50000) (j' : Fin 128), k = ix2 r j' := ⟨k 0, k 1, eq_ix2 k⟩
  have hj : j' = j := Fin.ext h1
  rw [hj]
  exact layer_congr (M := 50000) (n := 2000) (K := 128) (N := 128)
    (V c main_v17 : S50000x128.Idx → Elt Ideal .f32) (V c main_arg0 : S50000x128.Idx → Elt Ideal .f32)
    (V c main_v7 : S50000x1.Idx → Elt Ideal .f32)
    (iblk0 V c 0 t : Vec Ideal S2000x128 .f32) (iblk0 V c 1 t : Vec Ideal S2000x128 .f32) (iblk0 V c 2 t : Vec Ideal S2000x1 .f32)
    (V c main_v18 : S128x128.Idx → Elt Ideal .f32) (V c main_v19 : S128x128.Idx → Elt Ideal .f32)
    (iblk0 V c 3 t : Vec Ideal S128x128 .f32) (iblk0 V c 4 t : Vec Ideal S128x128 .f32)
    (V c main_v20 : S1x128.Idx → Elt Ideal .f32) (iblk0 V c 5 t : Vec Ideal S1x128 .f32) p r j
    (fun q => tile0_0 V c t (ix2 p q) (ix2 r q) h0 rfl) (fun q => tile0_1 V c t (ix2 p q) (ix2 r q) h0 rfl)
    (tile0_2 V c t (ix2 p (0 : Fin 1)) (ix2 r (0 : Fin 1)) h0 rfl) (tile0_3 V c t) (tile0_4 V c t) (tile0_5 V c t)

end Region0

/-! ## Region 0: what each point writes back, and the arrays after the pipeline -/

/-- An index of a [50000, 128] output array lies in point t's block iff its row is among rows 2000·t … 2000·t + 1999. -/
theorem mem_blk0_6 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v21_0).slice (win0_6.rect t)).set ↔ _
  rw [View.set_slice_whole, Rect.mem_set_unit]
  exact Iff.rfl

theorem mem_blk0_7 (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v21_1).slice (win0_7.rect t)).set ↔ _
  rw [View.set_slice_whole, Rect.mem_set_unit]
  exact Iff.rfl

/-- The 25 row blocks cover the 50000 rows: row r is in the block of point r / 2000. -/
theorem cover0_6 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := onto0 ⟨(i 0).val / 2000, by omega⟩
  have ht' : t.val = (i 0).val / 2000 := ht
  obtain ⟨-, -, -, -, -, -, -, -, -, -, -, -, e60, e61, -⟩ := idx0 t
  refine ⟨t, flush0_6 t, ?_⟩
  rw [mem_blk0_6]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

theorem cover0_7 (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ := onto0 ⟨(i 0).val / 2000, by omega⟩
  have ht' : t.val = (i 0).val / 2000 := ht
  obtain ⟨-, -, -, -, -, -, -, -, -, -, -, -, -, -, e70, e71⟩ := idx0 t
  refine ⟨t, flush0_7 t, ?_⟩
  rw [mem_blk0_7]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 128 ≤ (i 1).val ∧ (i 1).val < win0_7.index t (1 : Fin 2) * 128 + 128; omega

/-- The first layer's whole-array value at the entry contents. -/
abbrev L0 (c : Dev nD) : S50000x128.Idx → EReal :=
  layer (V c main_v17 : S50000x128.Idx → Elt Ideal .f32) (V c main_arg0 : S50000x128.Idx → Elt Ideal .f32)
    (V c main_v7 : S50000x1.Idx → Elt Ideal .f32) (V c main_v18 : S128x128.Idx → Elt Ideal .f32)
    (V c main_v19 : S128x128.Idx → Elt Ideal .f32) (V c main_v20 : S1x128.Idx → Elt Ideal .f32)

/-- What point t writes back to the f32 output: tile t of the layer of the whole arrays. -/
theorem flushed0_6 (c : Dev nD) (t : Fin cfg0.N) :
    (dat0 V c).flushed 6 t = ((cfg0.win 6).blk t).view.read (Elt Ideal) (L0 V c) := by
  show (cfg0.win 6).cut (grid0.coords t) ((dat0 V c).after 6 t) = _
  rw [after0_6]
  unfold out0_6
  rw [View.canon_unit_zero hz]
  simp only [View.ld_unit_zero (S := S2000x128) hz, View.ld_unit_zero (S := S2000x1) hz, View.ld_unit_zero (S := S128x128) hz,
    View.ld_unit_zero (S := S1x128) hz]
  rw [pay0_1]
  obtain ⟨-, -, -, -, -, -, -, -, -, -, -, -, e60, e61, -⟩ := idx0 t
  funext x
  refine layer_tile0 V c t x _ ?_ ?_
  · show win0_6.index t (0 : Fin 2) * 2000 + 1 * (x 0).val = t.val * 2000 + (x 0).val; omega
  · show win0_6.index t (1 : Fin 2) * 128 + 1 * (x 1).val = (x 1).val; omega

/-- What point t writes back to the bf16 output: tile t of its positive part. -/
theorem flushed0_7 (c : Dev nD) (t : Fin cfg0.N) :
    (dat0 V c).flushed 7 t = ((cfg0.win 7).blk t).view.read (Elt Ideal) (relu (L0 V c)) := by
  show (cfg0.win 7).cut (grid0.coords t) ((dat0 V c).after 7 t) = _
  rw [after0_7]
  unfold out0_7
  rw [View.canon_unit_zero hz]
  simp only [View.ld_unit_zero (S := S2000x128) hz, View.ld_unit_zero (S := S2000x1) hz, View.ld_unit_zero (S := S128x128) hz,
    View.ld_unit_zero (S := S1x128) hz]
  rw [pay0_2]
  obtain ⟨-, -, -, -, -, -, -, -, -, -, -, -, -, -, e70, e71⟩ := idx0 t
  funext x
  refine congrArg (fun z => max z zero) (layer_tile0 V c t x _ ?_ ?_)
  · show win0_7.index t (0 : Fin 2) * 2000 + 1 * (x 0).val = t.val * 2000 + (x 0).val; omega
  · show win0_7.index t (1 : Fin 2) * 128 + 1 * (x 1).val = (x 1).val; omega

/-- After the first pipeline its f32 output array holds the layer of the arrays it was entered with … -/
theorem arr0_6 (c : Dev nD) : (dat0 V c).arrAt 6 cfg0.N = L0 V c :=
  (dat0 V c).arrAt_eq_of_cover 6 (L0 V c) (fun t _ => flushed0_6 V c t) cover0_6

/-- … and its bf16 output array the positive part. -/
theorem arr0_7 (c : Dev nD) : (dat0 V c).arrAt 7 cfg0.N = relu (L0 V c) :=
  (dat0 V c).arrAt_eq_of_cover 7 (relu (L0 V c)) (fun t _ => flushed0_7 V c t) cover0_7

/-- Region 1: the three row-indexed inputs and the output sit at block row t, column block 0; the weights and
    the bias at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Every block row below 25 is some point's. -/
theorem onto1 : ∀ q : Fin 25, ∃ t : Fin cfg1.N, t.val = q.val :=
  (by decide +kernel : ∀ q : Fin 25, ∃ t : Fin grid1.N, t.val = q.val)

/-! ## Region 1: the staged tiles read off the arrays -/

section Region1
variable (c : Dev nD) (t : Fin cfg1.N)

/-- A [2000, 128] input tile at point t, entry (p, k): the array's entry (2000·t + p, k). -/
theorem tile1_0 (x : S2000x128.Idx) (k : S50000x128.Idx) (h0 : (k 0).val = t.val * 2000 + (x 0).val) (h1 : (k 1).val = (x 1).val) :
    (iblk1 V c 0 t : Vec Ideal S2000x128 .f32) x = (V c main_v32 : S50000x128.Idx → Elt Ideal .f32) k := by
  obtain ⟨e00, e01, -⟩ := idx1 t
  show V c main_v32 (((cfg1.win 0).blk t).view.emb x) = V c main_v32 k
  refine congrArg _ (funext fun a => Fin.ext ?_)
  match a with
  | ⟨0, _⟩ => show win1_0.index t (0 : Fin 2) * 2000 + 1 * (x 0).val = (k 0).val; omega
  | ⟨1, _⟩ => show win1_0.index t (1 : Fin 2) * 128 + 1 * (x 1).val = (k 1).val; omega

theorem tile1_1 (x : S2000x128.Idx) (k : S50000x128.Idx) (h0 : (k 0).val = t.val * 2000 + (x 0).val) (h1 : (k 1).val = (x 1).val) :
    (iblk1 V c 1 t : Vec Ideal S2000x128 .bf16) x = (V c main_v21_1 : S50000x128.Idx → Elt Ideal .bf16) k := by
  obtain ⟨-, -, e10, e11, -⟩ := idx1 t
  show V c main_v21_1 (((cfg1.win 1).blk t).view.emb x) = V c main_v21_1 k
  refine congrArg _ (funext fun a => Fin.ext ?_)
  match a with
  | ⟨0, _⟩ => show win1_1.index t (0 : Fin 2) * 2000 + 1 * (x 0).val = (k 0).val; omega
  | ⟨1, _⟩ => show win1_1.index t (1 : Fin 2) * 128 + 1 * (x 1).val = (k 1).val; omega

/-- The degree column's tile at point t, entry (p, 0): the column's entry (2000·t + p, 0). -/
theorem tile1_2 (x : S2000x1.Idx) (k : S50000x1.Idx) (h0 : (k 0).val = t.val * 2000 + (x 0).val) (h1 : (k 1).val = (x 1).val) :
    (iblk1 V c 2 t : Vec Ideal S2000x1 .f32) x = (V c main_v7 : S50000x1.Idx → Elt Ideal .f32) k := by
  obtain ⟨-, -, -, -, e20, e21, -⟩ := idx1 t
  show V c main_v7 (((cfg1.win 2).blk t).view.emb x) = V c main_v7 k
  refine congrArg _ (funext fun a => Fin.ext ?_)
  match a with
  | ⟨0, _⟩ => show win1_2.index t (0 : Fin 2) * 2000 + 1 * (x 0).val = (k 0).val; omega
  | ⟨1, _⟩ => show win1_2.index t (1 : Fin 2) * 1 + 1 * (x 1).val = (k 1).val; omega

/-- The weights and the bias are staged whole. -/
theorem tile1_3 : (iblk1 V c 3 t : Vec Ideal S128x128 .f32) = (V c main_v33 : S128x128.Idx → Elt Ideal .f32) := by
  obtain ⟨-, -, -, -, -, -, e30, e31, -⟩ := idx1 t
  funext x
  show V c main_v33 (((cfg1.win 3).blk t).view.emb x) = V c main_v33 x
  refine congrArg _ (funext fun a => Fin.ext ?_)
  match a with
  | ⟨0, _⟩ => show win1_3.index t (0 : Fin 2) * 128 + 1 * (x 0).val = (x 0).val; omega
  | ⟨1, _⟩ => show win1_3.index t (1 : Fin 2) * 128 + 1 * (x 1).val = (x 1).val; omega

theorem tile1_4 : (iblk1 V c 4 t : Vec Ideal S128x128 .f32) = (V c main_v34 : S128x128.Idx → Elt Ideal .f32) := by
  obtain ⟨-, -, -, -, -, -, -, -, e40, e41, -⟩ := idx1 t
  funext x
  show V c main_v34 (((cfg1.win 4).blk t).view.emb x) = V c main_v34 x
  refine congrArg _ (funext fun a => Fin.ext ?_)
  match a with
  | ⟨0, _⟩ => show win1_4.index t (0 : Fin 2) * 128 + 1 * (x 0).val = (x 0).val; omega
  | ⟨1, _⟩ => show win1_4.index t (1 : Fin 2) * 128 + 1 * (x 1).val = (x 1).val; omega

theorem tile1_5 : (iblk1 V c 5 t : Vec Ideal S1x128 .f32) = (V c main_v35 : S1x128.Idx → Elt Ideal .f32) := by
  obtain ⟨-, -, -, -, -, -, -, -, -, -, e50, e51, -⟩ := idx1 t
  funext x
  show V c main_v35 (((cfg1.win 5).blk t).view.emb x) = V c main_v35 x
  refine congrArg _ (funext fun a => Fin.ext ?_)
  match a with
  | ⟨0, _⟩ => show win1_5.index t (0 : Fin 2) * 1 + 1 * (x 0).val = (x 0).val; omega
  | ⟨1, _⟩ => show win1_5.index t (1 : Fin 2) * 128 + 1 * (x 1).val = (x 1).val; omega

/-- The layer of the staged tiles, at (p, j), is the layer of the whole arrays at (2000·t + p, j). -/
theorem layer_tile1 (x : S2000x128.Idx) (k : S50000x128.Idx) (h0 : (k 0).val = t.val * 2000 + (x 0).val) (h1 : (k 1).val = (x 1).val) :
    layer (iblk1 V c 0 t : Vec Ideal S2000x128 .f32) (iblk1 V c 1 t : Vec Ideal S2000x128 .bf16) (iblk1 V c 2 t : Vec Ideal S2000x1 .f32)
        (iblk1 V c 3 t : Vec Ideal S128x128 .f32) (iblk1 V c 4 t : Vec Ideal S128x128 .f32) (iblk1 V c 5 t : Vec Ideal S1x128 .f32) x
      = layer (V c main_v32 : S50000x128.Idx → Elt Ideal .f32) (V c main_v21_1 : S50000x128.Idx → Elt Ideal .bf16)
          (V c main_v7 : S50000x1.Idx → Elt Ideal .f32) (V c main_v33 : S128x128.Idx → Elt Ideal .f32)
          (V c main_v34 : S128x128.Idx → Elt Ideal .f32) (V c main_v35 : S1x128.Idx → Elt Ideal .f32) k := by
  obtain ⟨p, j, rfl⟩ : ∃ (p : Fin 2000) (j : Fin 128), x = ix2 p j := ⟨x 0, x 1, eq_ix2 x⟩
  obtain ⟨r, j', rfl⟩ : ∃ (r : Fin 50000) (j' : Fin 128), k = ix2 r j' := ⟨k 0, k 1, eq_ix2 k⟩
  have hj : j' = j := Fin.ext h1
  rw [hj]
  exact layer_congr (M := 50000) (n := 2000) (K := 128) (N := 128)
    (V c main_v32 : S50000x128.Idx → Elt Ideal .f32) (V c main_v21_1 : S50000x128.Idx → Elt Ideal .bf16)
    (V c main_v7 : S50000x1.Idx → Elt Ideal .f32)
    (iblk1 V c 0 t : Vec Ideal S2000x128 .f32) (iblk1 V c 1 t : Vec Ideal S2000x128 .bf16) (iblk1 V c 2 t : Vec Ideal S2000x1 .f32)
    (V c main_v33 : S128x128.Idx → Elt Ideal .f32) (V c main_v34 : S128x128.Idx → Elt Ideal .f32)
    (iblk1 V c 3 t : Vec Ideal S128x128 .f32) (iblk1 V c 4 t : Vec Ideal S128x128 .f32)
    (V c main_v35 : S1x128.Idx → Elt Ideal .f32) (iblk1 V c 5 t : Vec Ideal S1x128 .f32) p r j
    (fun q => tile1_0 V c t (ix2 p q) (ix2 r q) h0 rfl) (fun q => tile1_1 V c t (ix2 p q) (ix2 r q) h0 rfl)
    (tile1_2 V c t (ix2 p (0 : Fin 1)) (ix2 r (0 : Fin 1)) h0 rfl) (tile1_3 V c t) (tile1_4 V c t) (tile1_5 V c t)

end Region1

/-! ## Region 1: what each point writes back, and the arrays after the pipeline -/

/-- An index of a [50000, 128] output array lies in point t's block iff its row is among rows 2000·t … 2000·t + 1999. -/
theorem mem_blk1_6 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v36).slice (win1_6.rect t)).set ↔ _
  rw [View.set_slice_whole, Rect.mem_set_unit]
  exact Iff.rfl

/-- The 25 row blocks cover the 50000 rows: row r is in the block of point r / 2000. -/
theorem cover1_6 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := onto1 ⟨(i 0).val / 2000, by omega⟩
  have ht' : t.val = (i 0).val / 2000 := ht
  obtain ⟨-, -, -, -, -, -, -, -, -, -, -, -, e60, e61⟩ := idx1 t
  refine ⟨t, flush1_6 t, ?_⟩
  rw [mem_blk1_6]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- The second layer's whole-array value at the entry contents. -/
abbrev L1 (c : Dev nD) : S50000x128.Idx → EReal :=
  layer (V c main_v32 : S50000x128.Idx → Elt Ideal .f32) (V c main_v21_1 : S50000x128.Idx → Elt Ideal .bf16)
    (V c main_v7 : S50000x1.Idx → Elt Ideal .f32) (V c main_v33 : S128x128.Idx → Elt Ideal .f32)
    (V c main_v34 : S128x128.Idx → Elt Ideal .f32) (V c main_v35 : S1x128.Idx → Elt Ideal .f32)

/-- What point t writes back: tile t of the layer of the whole arrays. -/
theorem flushed1_6 (c : Dev nD) (t : Fin cfg1.N) :
    (dat1 V c).flushed 6 t = ((cfg1.win 6).blk t).view.read (Elt Ideal) (L1 V c) := by
  show (cfg1.win 6).cut (grid1.coords t) ((dat1 V c).after 6 t) = _
  rw [after1_6]
  unfold out1_6
  rw [View.canon_unit_zero hz]
  simp only [View.ld_unit_zero (S := S2000x128) hz, View.ld_unit_zero (S := S2000x1) hz, View.ld_unit_zero (S := S128x128) hz,
    View.ld_unit_zero (S := S1x128) hz]
  rw [pay1_1]
  obtain ⟨-, -, -, -, -, -, -, -, -, -, -, -, e60, e61⟩ := idx1 t
  funext x
  refine layer_tile1 V c t x _ ?_ ?_
  · show win1_6.index t (0 : Fin 2) * 2000 + 1 * (x 0).val = t.val * 2000 + (x 0).val; omega
  · show win1_6.index t (1 : Fin 2) * 128 + 1 * (x 1).val = (x 1).val; omega

/-- After the second pipeline its output array holds the layer of the arrays it was entered with. -/
theorem arr1_6 (c : Dev nD) : (dat1 V c).arrAt 6 cfg1.N = L1 V c :=
  (dat1 V c).arrAt_eq_of_cover 6 (L1 V c) (fun t _ => flushed1_6 V c t) cover1_6

end Cert.KernelIdeal.Tiles

end
-- ==== Proof.SageNet.lean ====
/-
  The two-layer network as whole-array functions of the program's arguments, over the extended reals.

  From the edge list (a [2, E] integer array: row 0 the sources, row 1 the destinations) come the source column (a
  negative source wrapped by the node count), the destination column, the in-degree column `degree` (ones scattered
  and summed at the destinations) and, for a feature array x, the neighbour sum `neighbourSum` (the rows of x gathered
  at the sources, scattered and summed at the destinations). A convolution `conv` is `MeanLayer.layer` of the neighbour
  sum, the features, the degree, the two weight matrices transposed and the bias as a row. The program returns
  `out1 = conv x` and `out2 = conv (relu out1)` (with the second layer's weights).

  The gather and the two scatters are the host's own operations on both sides of the claim: they are named here and
  never opened.
-/
import proofs.«129506_j59133109731936_2_alg».proof.Proof.Gen.KernelIdeal
import proofs.«129506_j59133109731936_2_alg».proof.Proof.LibMeanLayer

noncomputable section

namespace Cert.KernelIdeal.Net

open Cert.KernelIdeal Cert.KernelIdeal.Gen Cert.MeanLayer
open Idealize.ShloMosaic

/-- The edge list, a feature array, a weight matrix, a bias vector. -/
abbrev Edges : Type := (⟨S2x600000, .i32⟩ : BufTy).Contents (Elt Ideal)
abbrev Feat : Type := (⟨S50000x128, .f32⟩ : BufTy).Contents (Elt Ideal)
abbrev Wt : Type := (⟨S128x128, .f32⟩ : BufTy).Contents (Elt Ideal)
abbrev Bias : Type := (⟨S128, .f32⟩ : BufTy).Contents (Elt Ideal)

/-- Row 0 of the edge list: the sources. -/
def srcRow (ei : Edges) : (⟨S600000, .i32⟩ : BufTy).Contents (Elt Ideal) :=
  shapeCast S600000 (extractStridedSlice S1x600000 ![0, 0] ei slices_S2x600000_S1x600000_0_0) shapeCasts_S1x600000_S600000

/-- Row 1 of the edge list, as a column: the destinations. -/
def dstCol (ei : Edges) : (⟨S600000x1, .i32⟩ : BufTy).Contents (Elt Ideal) :=
  broadcastInDim S600000x1 ![0] bcast_S600000_S600000x1_0
    (shapeCast S600000 (extractStridedSlice S1x600000 ![1, 0] ei slices_S2x600000_S1x600000_1_0) shapeCasts_S1x600000_S600000)

/-- The sources as a column, a negative one wrapped by the node count. -/
def srcCol (ei : Edges) : (⟨S600000x1, .i32⟩ : BufTy).Contents (Elt Ideal) :=
  broadcastInDim S600000x1 ![0] bcast_S600000_S600000x1_0
    (select (cmpi .slt (srcRow ei) (broadcastInDim S600000 ![] bcast_S_S600000 (constantI S_ 32 0#32)))
      (addi (srcRow ei) (broadcastInDim S600000 ![] bcast_S_S600000 (constantI S_ 32 50000#32))) (srcRow ei))

/-- The in-degree of every node, as a column: a one per edge summed at its destination. -/
def degree (ei : Edges) : (⟨S50000x1, .f32⟩ : BufTy).Contents (Elt Ideal) :=
  Host.scatterAdd scatter_S50000x1_S600000x1_S600000x1_1_0_0_1
    (broadcastInDim S50000x1 ![] bcast_S_S50000x1 (constant (F := Ideal) S_ .f32 0x00000000#32)) (dstCol ei)
    (broadcastInDim S600000x1 ![] bcast_S_S600000x1 (constant (F := Ideal) S_ .f32 0x3F800000#32))

/-- The sum, at every node, of the feature rows of its in-neighbours. -/
def neighbourSum (ei : Edges) (x : Feat) : Feat :=
  Host.scatterAdd scatter_S50000x128_S600000x1_S600000x128_1_0_0_1
    (broadcastInDim S50000x128 ![] bcast_S_S50000x128 (constant (F := Ideal) S_ .f32 0x00000000#32)) (dstCol ei)
    (Host.gather gather_S50000x128_S600000x1_S600000x128_1_0_n_n_0_1_1128 x (srcCol ei))

/-- One convolution: the mean of the neighbours through one weight matrix, the node itself through the other, the bias. -/
def conv (ei : Edges) (x : Feat) (wl : Wt) (b : Bias) (wr : Wt) : Feat :=
  layer (neighbourSum ei x) x (degree ei) (transpose S128x128 [1, 0] wl transposes_S128x128_S128x128_1_0)
    (transpose S128x128 [1, 0] wr transposes_S128x128_S128x128_1_0) (shapeCast S1x128 b shapeCasts_S128_S1x128)

/-- The second returned array: the second convolution of the first one's positive part. -/
def out2 (ei : Edges) (x : Feat) (w1l : Wt) (b1 : Bias) (w1r : Wt) (w2l : Wt) (b2 : Bias) (w2r : Wt) : Feat :=
  conv ei (relu (conv ei x w1l b1 w1r)) w2l b2 w2r

end Cert.KernelIdeal.Net

end
-- ==== Proof.KernelValue.lean ====
/-
  The idealized kernel's two results as functions of its arguments.

  The buffer contents are folded through the program's four stretches by the generated frame (`Gen.W0` … `Gen.W4`).
  Read backwards from the end:
  * the second pipeline's output array is `MeanLayer.layer` of the arrays that pipeline was entered with
    (`Tiles.arr1_6`): the neighbour sum of the first pipeline's positive-part output (gathered in bf16 and widened:
    the identity on extended reals), that output itself, the degree column, the second layer's weights transposed and
    its bias as a row;
  * the host operations between the pipelines write none of the first pipeline's outputs;
  * the first pipeline's two output arrays are `layer` of ITS entry arrays and the positive part of that
    (`Tiles.arr0_6`, `Tiles.arr0_7`); its input arrays leave as they entered;
  * the host operations before the first pipeline compute the neighbour sum of the features, the degree column, the
    transposed weights and the bias row from the arguments.
  So the results are `Net.conv` and `Net.out2` of the arguments.
-/
import proofs.«129506_j59133109731936_2_alg».proof.Proof.KernelRun
import proofs.«129506_j59133109731936_2_alg».proof.Proof.KernelTiles
import proofs.«129506_j59133109731936_2_alg».proof.Proof.SageNet

set_option maxRecDepth 16384

noncomputable section

namespace Cert.KernelIdeal.Chain

open Cert.KernelIdeal Cert.KernelIdeal.Gen Cert.KernelIdeal.Net Cert.KernelIdeal.Tiles Cert.MeanLayer
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

-- reading one buffer back through a stretch of host operations is one rewriting pass over the whole stretch
set_option maxHeartbeats 4000000

/-! ## Before the first pipeline: what the host computes from the arguments -/

theorem in0_sum : (V1 m ρ c main_v17 : S50000x128.Idx → EReal)
    = neighbourSum (m ((c : Thread nD τ).loc main_arg1)) (m ((c : Thread nD τ).loc main_arg0)) := by
  dsimp only [V1, W1, hostOps0]
  after_results_simp <;> rfl

theorem in0_self : (V1 m ρ c main_arg0 : S50000x128.Idx → EReal) = m ((c : Thread nD τ).loc main_arg0) := by
  dsimp only [V1, W1, hostOps0]
  after_results_simp <;> rfl

theorem in0_degree : (V1 m ρ c main_v7 : S50000x1.Idx → EReal) = degree (m ((c : Thread nD τ).loc main_arg1)) := by
  dsimp only [V1, W1, hostOps0]
  after_results_simp <;> rfl

theorem in0_wl : (V1 m ρ c main_v18 : S128x128.Idx → EReal)
    = transpose S128x128 [1, 0] (m ((c : Thread nD τ).loc main_arg2)) transposes_S128x128_S128x128_1_0 := by
  dsimp only [V1, W1, hostOps0]
  after_results_simp <;> rfl

theorem in0_wr : (V1 m ρ c main_v19 : S128x128.Idx → EReal)
    = transpose S128x128 [1, 0] (m ((c : Thread nD τ).loc main_arg4)) transposes_S128x128_S128x128_1_0 := by
  dsimp only [V1, W1, hostOps0]
  after_results_simp <;> rfl

theorem in0_bias : (V1 m ρ c main_v20 : S1x128.Idx → EReal)
    = shapeCast S1x128 (m ((c : Thread nD τ).loc main_arg3)) shapeCasts_S128_S1x128 := by
  dsimp only [V1, W1, hostOps0]
  after_results_simp <;> rfl

/-- The first layer of the arrays the first pipeline is entered with is the first convolution of the arguments. -/
theorem layer0 : L0 (V1 m ρ) c = conv (m ((c : Thread nD τ).loc main_arg1)) (m ((c : Thread nD τ).loc main_arg0))
    (m ((c : Thread nD τ).loc main_arg2)) (m ((c : Thread nD τ).loc main_arg3)) (m ((c : Thread nD τ).loc main_arg4)) := by
  unfold conv
  rw [← in0_sum m ρ c, ← in0_degree m ρ c, ← in0_wl m ρ c, ← in0_wr m ρ c, ← in0_bias m ρ c]
  exact congrArg (fun z => layer (V1 m ρ c main_v17 : S50000x128.Idx → EReal) z (V1 m ρ c main_v7 : S50000x1.Idx → EReal)
    (V1 m ρ c main_v18 : S128x128.Idx → EReal) (V1 m ρ c main_v19 : S128x128.Idx → EReal) (V1 m ρ c main_v20 : S1x128.Idx → EReal))
    (in0_self m ρ c)

/-! ## After the first pipeline -/

/-- The first pipeline leaves the first convolution in its f32 output array … -/
theorem mid_out : W2 m ρ c (Proc.devRef .tc main_v21_0) = L0 (V1 m ρ) c :=
  (W2_arr m ρ c 6).trans (arr0_6 (V1 m ρ) c)

/-- … and its positive part in the bf16 output array. -/
theorem mid_act : W2 m ρ c (Proc.devRef .tc main_v21_1) = relu (L0 (V1 m ρ) c) :=
  (W2_arr m ρ c 7).trans (arr0_7 (V1 m ρ) c)

/-- The degree column, an input of the first pipeline, leaves it as it entered. -/
theorem mid_degree : W2 m ρ c (Proc.devRef .tc main_v7) = degree (m ((c : Thread nD τ).loc main_arg1)) :=
  (W2_arr m ρ c 2).trans (((dat0 (V1 m ρ) c).arrAt_in 2 rfl _).trans ((A_eq0 (V1 m ρ) c 2).trans (in0_degree m ρ c)))

/-- Buffers the first pipeline does not touch hold what the host left there. -/
theorem mid_src : W2 m ρ c (Proc.devRef .tc main_v1) = srcRow (m ((c : Thread nD τ).loc main_arg1)) := by
  refine (W2_of_ne m ρ c main_v1 (by decide)).trans ?_
  dsimp only [W1, hostOps0]
  after_results_simp <;> rfl

theorem mid_dst : W2 m ρ c (Proc.devRef .tc main_v3)
    = shapeCast S600000 (extractStridedSlice S1x600000 ![1, 0] (m ((c : Thread nD τ).loc main_arg1)) slices_S2x600000_S1x600000_1_0) shapeCasts_S1x600000_S600000 := by
  refine (W2_of_ne m ρ c main_v3 (by decide)).trans ?_
  dsimp only [W1, hostOps0]
  after_results_simp <;> rfl

theorem mid_arg5 : W2 m ρ c (Proc.devRef .tc main_arg5) = m ((c : Thread nD τ).loc main_arg5) := by
  refine (W2_of_ne m ρ c main_arg5 (by decide)).trans ?_
  dsimp only [W1, hostOps0]
  after_results_simp <;> rfl

theorem mid_arg6 : W2 m ρ c (Proc.devRef .tc main_arg6) = m ((c : Thread nD τ).loc main_arg6) := by
  refine (W2_of_ne m ρ c main_arg6 (by decide)).trans ?_
  dsimp only [W1, hostOps0]
  after_results_simp <;> rfl

theorem mid_arg7 : W2 m ρ c (Proc.devRef .tc main_arg7) = m ((c : Thread nD τ).loc main_arg7) := by
  refine (W2_of_ne m ρ c main_arg7 (by decide)).trans ?_
  dsimp only [W1, hostOps0]
  after_results_simp <;> rfl

/-! ## Before the second pipeline: what the host computes from the first pipeline's outputs -/

theorem in1_sum : (V3 m ρ c main_v32 : S50000x128.Idx → EReal)
    = neighbourSum (m ((c : Thread nD τ).loc main_arg1)) (relu (L0 (V1 m ρ) c)) := by
  dsimp only [V3, W3, hostOps1]
  after_results_simp
  rw [mid_src m ρ c, mid_dst m ρ c, mid_act m ρ c]
  rfl

theorem in1_self : (V3 m ρ c main_v21_1 : S50000x128.Idx → EReal) = relu (L0 (V1 m ρ) c) := by
  dsimp only [V3, W3, hostOps1]
  after_results_simp
  exact mid_act m ρ c

theorem in1_degree : (V3 m ρ c main_v7 : S50000x1.Idx → EReal) = degree (m ((c : Thread nD τ).loc main_arg1)) := by
  dsimp only [V3, W3, hostOps1]
  after_results_simp
  exact mid_degree m ρ c

theorem in1_wl : (V3 m ρ c main_v33 : S128x128.Idx → EReal)
    = transpose S128x128 [1, 0] (m ((c : Thread nD τ).loc main_arg5)) transposes_S128x128_S128x128_1_0 := by
  dsimp only [V3, W3, hostOps1]
  after_results_simp
  rw [mid_arg5 m ρ c]

theorem in1_wr : (V3 m ρ c main_v34 : S128x128.Idx → EReal)
    = transpose S128x128 [1, 0] (m ((c : Thread nD τ).loc main_arg7)) transposes_S128x128_S128x128_1_0 := by
  dsimp only [V3, W3, hostOps1]
  after_results_simp
  rw [mid_arg7 m ρ c]

theorem in1_bias : (V3 m ρ c main_v35 : S1x128.Idx → EReal)
    = shapeCast S1x128 (m ((c : Thread nD τ).loc main_arg6)) shapeCasts_S128_S1x128 := by
  dsimp only [V3, W3, hostOps1]
  after_results_simp
  rw [mid_arg6 m ρ c]
  rfl

/-- The second layer of the arrays the second pipeline is entered with is the second returned array of the network. -/
theorem layer1 : L1 (V3 m ρ) c = out2 (m ((c : Thread nD τ).loc main_arg1)) (m ((c : Thread nD τ).loc main_arg0))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) := by
  unfold out2
  rw [← layer0 m ρ c]
  unfold conv
  rw [← in1_sum m ρ c, ← in1_degree m ρ c, ← in1_wl m ρ c, ← in1_wr m ρ c, ← in1_bias m ρ c]
  exact congrArg (fun z => layer (V3 m ρ c main_v32 : S50000x128.Idx → EReal) z (V3 m ρ c main_v7 : S50000x1.Idx → EReal)
    (V3 m ρ c main_v33 : S128x128.Idx → EReal) (V3 m ρ c main_v34 : S128x128.Idx → EReal) (V3 m ρ c main_v35 : S1x128.Idx → EReal))
    (in1_self m ρ c)

/-! ## The two results -/

/-- The host operations between the pipelines leave the first pipeline's f32 output alone, and the second pipeline does
    not touch it: it ends as the first convolution. -/
theorem value1 : W4 m ρ c (Proc.devRef .tc main_v21_0) = conv (m ((c : Thread nD τ).loc main_arg1)) (m ((c : Thread nD τ).loc main_arg0))
    (m ((c : Thread nD τ).loc main_arg2)) (m ((c : Thread nD τ).loc main_arg3)) (m ((c : Thread nD τ).loc main_arg4)) := by
  refine (W4_of_ne m ρ c main_v21_0 (by decide)).trans ?_
  refine Eq.trans ?_ ((mid_out m ρ c).trans (layer0 m ρ c))
  dsimp only [W3, hostOps1]
  after_results_simp

/-- The second pipeline's output array ends as the second convolution. -/
theorem value2 : W4 m ρ c (Proc.devRef .tc main_v36) = out2 (m ((c : Thread nD τ).loc main_arg1)) (m ((c : Thread nD τ).loc main_arg0))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) :=
  (W4_arr m ρ c 6).trans ((arr1_6 (V3 m ρ) c).trans (layer1 m ρ c))

/-- THE RUN of the idealized kernel: every weakly fair execution terminates with the first result the first convolution
    of the arguments, the second result the second convolution of the first one's positive part, and the arguments as
    launched. -/
theorem run : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_v21_0) = conv (m ((c.tc : Thread nD τ).loc main_arg1)) (m ((c.tc : Thread nD τ).loc main_arg0))
          (m ((c.tc : Thread nD τ).loc main_arg2)) (m ((c.tc : Thread nD τ).loc main_arg3)) (m ((c.tc : Thread nD τ).loc main_arg4))
      ∧ r.2.mem ((c.tc : Thread nD τ).loc main_v36) = out2 (m ((c.tc : Thread nD τ).loc main_arg1)) (m ((c.tc : Thread nD τ).loc main_arg0))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).2.2.1, (h c).1.trans (value1 m ρ c), (h c).2.1.trans (value2 m ρ c), (h c).2.2⟩)
    (Cert.KernelIdeal.Named.run_named m ρ)

end Cert.KernelIdeal.Chain

end
-- ==== Proof.RefValue.lean ====
/-
  The idealized reference's two results as the same functions of its arguments.

  The reference computes each convolution on the host: the neighbour sum and the degree column by the same gather and
  scatters as the kernel's host stretches, the quotient by the clamped degree spread over the columns, two
  `dot_general`s against the transposed weights and the bias broadcast twice, summed as (A + bias) + B. That is
  `MeanLayer.layer` (`MeanLayer.layer_host`: addition of extended reals is commutative and associative), so its first
  result is `Net.conv` of the arguments; its `relu` is `MeanLayer.relu`; and its second result is `Net.out2`.
  Stated over the generated stage functions of the reference's run, one per host operation.
-/
import proofs.«129506_j59133109731936_2_alg».proof.Proof.Gen.ReferenceIdeal.Read
import proofs.«129506_j59133109731936_2_alg».proof.Proof.SageNet

set_option maxRecDepth 16384

noncomputable section

namespace Cert.ReferenceIdeal.RefValue

open Cert.ReferenceIdeal Cert.ReferenceIdeal.Gen Cert.ReferenceIdeal.Read Cert.MeanLayer
open Idealize.ShloMosaic
open Cert.KernelIdeal.Net (conv out2 neighbourSum degree)

variable (x0 : (⟨S50000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal))

/-- The reference's first result is the first convolution. -/
theorem ref1 : val_main_v82 (F := Ideal) x0 x1 x2 x3 x4 = conv x1 x0 x2 x3 x4 :=
  layer_host (M := 50000) (K := 128) (N := 128) dot_S50000x128_S128x128_S50000x128_1_0_0_1_n_n.wf
    (neighbourSum x1 x0) x0 (degree x1)
    (transpose S128x128 [1, 0] x2 transposes_S128x128_S128x128_1_0) (transpose S128x128 [1, 0] x4 transposes_S128x128_S128x128_1_0) x3
    bcast_S_S50000x1 bcast_S50000x1_S50000x128_0_1 bcast_S128_S1x128_1 bcast_S1x128_S50000x128_0_1
    Cert.KernelIdeal.Gen.shapeCasts_S128_S1x128

/-- The reference's `relu` of it is its positive part. -/
theorem ref_relu : val_main_v83 (F := Ideal) x0 x1 x2 x3 x4 = relu (val_main_v82 (F := Ideal) x0 x1 x2 x3 x4) := rfl

/-- The reference's second result is the second convolution of that positive part. -/
theorem ref2 : val_main_v109 (F := Ideal) x0 x1 x2 x3 x4 x5 x6 x7 = out2 x1 x0 x2 x3 x4 x5 x6 x7 := by
  have h := layer_host (M := 50000) (K := 128) (N := 128) dot_S50000x128_S128x128_S50000x128_1_0_0_1_n_n.wf
    (neighbourSum x1 (val_main_v83 (F := Ideal) x0 x1 x2 x3 x4)) (val_main_v83 (F := Ideal) x0 x1 x2 x3 x4) (degree x1)
    (transpose S128x128 [1, 0] x5 transposes_S128x128_S128x128_1_0) (transpose S128x128 [1, 0] x7 transposes_S128x128_S128x128_1_0) x6
    bcast_S_S50000x1 bcast_S50000x1_S50000x128_0_1 bcast_S128_S1x128_1 bcast_S1x128_S50000x128_0_1
    Cert.KernelIdeal.Gen.shapeCasts_S128_S1x128
  refine Eq.trans h ?_
  show conv x1 (val_main_v83 (F := Ideal) x0 x1 x2 x3 x4) x5 x6 x7 = out2 x1 x0 x2 x3 x4 x5 x6 x7
  rw [ref_relu, ref1]
  rfl

end Cert.ReferenceIdeal.RefValue

end
-- ==== Proof.lean ====
/-
  The certificate of a two-layer mean-aggregating graph convolution whose dense stages run as two tile pipelines,
  against its plain array-program reference, at the extended reals.

  Both programs compute, from node features x, an edge list and two layers' weights and biases,
      out1 = conv x,   out2 = conv (relu out1),
  where conv y = (neighbourSum y / max (degree, 1)) · wlᵀ + y · wrᵀ + b  (`Net.conv`, `MeanLayer.layer`).
  The neighbour sum (gather at the sources, scatter-add at the destinations) and the degree are the same host operations
  in both programs. The kernel sums each row as (A + B) + b in tiles of 2000 rows (`Tiles`, `Chain`); the reference as
  (A + b) + B on whole arrays (`RefValue`); the two agree because addition of extended reals is commutative and
  associative — no finiteness of the inputs is used. Roundings to bf16 are the identity at this instance.
  The three frames are the generated ones (the reference's is its generated run with the results dropped); the
  idealization rewrote nothing, so `preserves` is trivial.
-/
import proofs.«129506_j59133109731936_2_alg».proof.Defs
import proofs.«129506_j59133109731936_2_alg».proof.Proof.Gen.Kernel
import proofs.«129506_j59133109731936_2_alg».proof.Proof.Gen.Kernel.Skeleton
import proofs.«129506_j59133109731936_2_alg».proof.Proof.Gen.Kernel.Launch
import proofs.«129506_j59133109731936_2_alg».proof.Proof.Gen.Kernel.Points
import proofs.«129506_j59133109731936_2_alg».proof.Proof.Gen.Kernel.Frame
import proofs.«129506_j59133109731936_2_alg».proof.Proof.Gen.KernelIdeal
import proofs.«129506_j59133109731936_2_alg».proof.Proof.Gen.KernelIdeal.Skeleton
import proofs.«129506_j59133109731936_2_alg».proof.Proof.Gen.KernelIdeal.Launch
import proofs.«129506_j59133109731936_2_alg».proof.Proof.Gen.KernelIdeal.Points
import proofs.«129506_j59133109731936_2_alg».proof.Proof.Gen.KernelIdeal.Frame
import proofs.«129506_j59133109731936_2_alg».proof.Proof.Gen.ReferenceIdeal
import proofs.«129506_j59133109731936_2_alg».proof.Proof.Gen.ReferenceIdeal.Run
import proofs.«129506_j59133109731936_2_alg».proof.Proof.Gen.ReferenceIdeal.Read
import proofs.«129506_j59133109731936_2_alg».proof.Proof.Gen.Pre_finite_inputs
import proofs.«129506_j59133109731936_2_alg».proof.Proof.KernelValue
import proofs.«129506_j59133109731936_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its generated run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both runs end with the features returned as they are, `Net.conv` and `Net.out2` of the arguments. -/
theorem algebraic : Cert.algebraic_KernelIdeal_ReferenceIdeal := by
  intro m ρ m' ρ' _ hagree
  refine ⟨_, _, _, Cert.KernelIdeal.Chain.run m ρ, ?_⟩
  refine (θ_run Cert.ReferenceIdeal.defs _ _).mono (fun r h c => ?_) (Cert.ReferenceIdeal.Value.run (F := Ideal) m' ρ')
  obtain ⟨h0, h1, h2, hrest⟩ := h c
  obtain ⟨a0, a1, a2, a3, a4, a5, a6, a7⟩ := hagree c
  refine ⟨h0.trans a0, h1.trans ?_, h2.trans ?_, hrest⟩
  · rw [Cert.ReferenceIdeal.Read.val_main_v82_eq, Cert.ReferenceIdeal.RefValue.ref1, a0, a1, a2, a3, a4]
  · rw [Cert.ReferenceIdeal.Read.val_main_v109_eq, Cert.ReferenceIdeal.RefValue.ref2, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
